-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x16x256x64 : Shape := ⟨4, ![1, 16, 256, 64]⟩
abbrev S1x16x256x256 : Shape := ⟨4, ![1, 16, 256, 256]⟩
abbrev S16x256x64 : Shape := ⟨3, ![16, 256, 64]⟩
abbrev S16x256x256 : Shape := ⟨3, ![16, 256, 256]⟩
abbrev S256x256 : Shape := ⟨2, ![256, 256]⟩
abbrev S1x256x256 : Shape := ⟨3, ![1, 256, 256]⟩

abbrev nBuf : Space → Nat
  | .hbm => 6
  | .vmem => 11
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .i32⟩
  | .hbm, ⟨5, _⟩ => ⟨S2x16x2048x64, .f32⟩
  | .local _ .vmem, ⟨0, _⟩ => ⟨S1x16x256x64, .f32⟩
  | .local _ .vmem, ⟨1, _⟩ => ⟨S1x16x256x64, .f32⟩
  | .local _ .vmem, ⟨2, _⟩ => ⟨S1x16x256x64, .f32⟩
  | .local _ .vmem, ⟨3, _⟩ => ⟨S1x16x256x64, .f32⟩
  | .local _ .vmem, ⟨4, _⟩ => ⟨S1x16x256x64, .f32⟩
  | .local _ .vmem, ⟨5, _⟩ => ⟨S1x16x256x64, .f32⟩
  | .local _ .vmem, ⟨6, _⟩ => ⟨S1x16x256x256, .i32⟩
  | .local _ .vmem, ⟨7, _⟩ => ⟨S1x16x256x256, .i32⟩
  | .local _ .vmem, ⟨8, _⟩ => ⟨S1x16x256x64, .f32⟩
  | .local _ .vmem, ⟨9, _⟩ => ⟨S1x16x256x64, .f32⟩
  | .local _ .vmem, ⟨10, _⟩ => ⟨S16x256x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v36 : BitVec 1 := Scalar.cmpi .eq arg2 c7_i32
  let v37 : BitVec 32 := Scalar.extui v36
  let c0_i32_28 : BitVec 32 := 0#32
  let v38 : BitVec 1 := Scalar.cmpi .ne v37 c0_i32_28
  v38

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x16x256x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  natLt_1_32 : 1 < 32
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  bitsLt_bf16_f32 : FTy.bits .bf16 < FTy.bits .f32
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  reduces_S16x256x256_S256x256 : S16x256x256.Reduces [0] S256x256
  shapeCasts_S256x256_S1x256x256 : S256x256.ShapeCasts S1x256x256
  broadcasts_S1x256x256_S16x256x256 : S1x256x256.Broadcasts S16x256x256
  shapeCasts_S16x256x64_S1x16x256x64 : S16x256x64.ShapeCasts S1x16x256x64
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x64.size a ≤ S2x16x2048x64.size a
  hwx0_0 : ∀ i : grid0.Coords, EltTy.bits .f32 = 32 ∨ (Rect.block (s := S2x16x2048x64) S1x16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x64.size a ≤ S2x16x2048x64.size a
  hwx0_1 : ∀ i : grid0.Coords, EltTy.bits .f32 = 32 ∨ (Rect.block (s := S2x16x2048x64) S1x16x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x64.size a ≤ S2x16x2048x64.size a
  hwx0_2 : ∀ i : grid0.Coords, EltTy.bits .f32 = 32 ∨ (Rect.block (s := S2x16x2048x64) S1x16x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x256.size a ≤ S2x16x2048x2048.size a
  hwx0_3 : ∀ i : grid0.Coords, EltTy.bits .i32 = 32 ∨ (Rect.block (s := S2x16x2048x2048) S1x16x256x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S2x16x2048x64.size a
  hwx0_4 : ∀ i : grid0.Coords, EltTy.bits .f32 = 32 ∨ (Rect.block (s := S2x16x2048x64) S1x16x256x64.size (cc0_transform_4 i) (hinb0_4 i)).WholeWords (EltTy.packing .f32)

variable [Facts₀]

def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf

abbrev win0_0 : Pipeline.Window sig grid0 :=
  Pipeline.Window.ofSpec (Memref.whole main_arg0) S1x16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x2048x2048 : Shape := ⟨3, ![2, 2048, 2048]⟩
abbrev S2x1x2048x2048 : Shape := ⟨4, ![2, 1, 2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x2048x2048, .f32⟩
  | .hbm, ⟨13, _⟩ => ⟨S_, .f32⟩
  | .hbm, ⟨14, _⟩ => ⟨S2x2048x2048, .f32⟩
  | .hbm, ⟨15, _⟩ => ⟨S2x2048x2048, .f32⟩
  | .hbm, ⟨16, _⟩ => ⟨S2x1x2048x2048, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x2048x2048, .f32⟩
  | .hbm, ⟨22, _⟩ => ⟨S2x1x2048x2048, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x2048x2048_d1 : S2x16x2048x2048.ReducesTo [1] S2x2048x2048
  h_S_ : 0 < S_.numel
  bcast_S_S2x2048x2048 : S_.BroadcastsInDim S2x2048x2048 (![] : Fin 0 → Fin S2x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Head-axis softmax attention, index by index, as one function of the four argument arrays.

  For a batch b, a query row q and a key row k, the sixteen heads' masked scaled scores
      σ h = if mask(b,h,q,k) then -1e9 else (∑ d, Q(b,h,q,d) · K(b,h,k,d)) · 1/8
  are normalised ACROSS THE HEADS: w h = exp(σ h - max σ) / ∑ h', exp(σ h' - max σ). The result is
      out(b,h,q,d) = ∑ k, w(b,h,q,k) · V(b,h,k,d).
  The sum over the 2048 key rows is also the sum, over the eight blocks of 256 key rows, of each
  block's partial sum: addition of extended reals is commutative and associative, so no finiteness
  is needed for that regrouping.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The shape of Q, K, V and of the result. -/
abbrev SQ : Shape := ⟨4, ![2, 16, 2048, 64]⟩
/-- The shape of the mask. -/
abbrev SM : Shape := ⟨4, ![2, 16, 2048, 2048]⟩

/-- One masked scaled score: -1e9 where the mask bit is set, else the dot product times 1/8. -/
def cell (mbit : BitVec 1) (dot : EReal) : EReal :=
  Scalar.select mbit (Ideal.ofBits .f32 0xCE6E6B28#32) (dot * Ideal.ofBits .f32 0x3E000000#32)

/-- The largest of sixteen scores, folded from -∞. -/
def top16 (σ : Fin 16 → EReal) : EReal :=
  (Finset.univ : Finset (Fin 16)).fold max (Ideal.ofBits .f32 0xFF800000#32) σ

/-- The softmax of sixteen scores, at head h. -/
def softmax16 (σ : Fin 16 → EReal) (h : Fin 16) : EReal :=
  Ideal.div (Ideal.exp (σ h - top16 σ)) (∑ h' : Fin 16, Ideal.exp (σ h' - top16 σ))

variable (Q K V : SQ.Idx → EReal) (M : SM.Idx → BitVec 1)

/-- The attention weight of key row k for query row q in head h of batch b. -/
def weight (b : Fin 2) (h : Fin 16) (q k : Fin 2048) : EReal :=
  softmax16 (fun h' => cell (M (ix4 b h' q k)) (∑ d : Fin 64, Q (ix4 b h' q d) * K (ix4 b h' k d))) h

/-- One term of the result's sum over key rows. -/
def term (b : Fin 2) (h : Fin 16) (q : Fin 2048) (d : Fin 64) (k : Fin 2048) : EReal :=
  weight Q K M b h q k * V (ix4 b h k d)

/-- The result at (b, h, q, d). -/
def out (b : Fin 2) (h : Fin 16) (q : Fin 2048) (d : Fin 64) : EReal :=
  ∑ k : Fin 2048, term Q K V M b h q d k

/-- The result array. -/
def G : SQ.Idx → EReal := fun i => out Q K V M (i 0) (i 1) (i 2) (i 3)

/-- The partial sum over the key rows 256·s … 256·s + 255 (zero past the eighth block). -/
def part (b : Fin 2) (h : Fin 16) (q : Fin 2048) (d : Fin 64) (s : Nat) : EReal :=
  ∑ kk : Fin 256, if hk : 256 * s + kk.val < 2048 then term Q K V M b h q d ⟨256 * s + kk.val, hk⟩ else 0

/-- The eight blocks' partial sums add up to the whole sum. -/
theorem sum_part (b : Fin 2) (h : Fin 16) (q : Fin 2048) (d : Fin 64) :
    ∑ s ∈ Finset.range 8, part Q K V M b h q d s = out Q K V M b h q d := by
  rw [← Fin.sum_univ_eq_sum_range (fun s => part Q K V M b h q d s) 8]
  unfold out
  rw [← Equiv.sum_comp (finProdFinEquiv (m := 8) (n := 256)) (fun k : Fin (8 * 256) => term Q K V M b h q d k),
    Fintype.sum_prod_type]
  refine Finset.sum_congr rfl fun a _ => ?_
  unfold part
  refine Finset.sum_congr rfl fun kk _ => ?_
  have ha : a.val < 8 := a.isLt
  have hk : kk.val < 256 := kk.isLt
  have hlt : 256 * a.val + kk.val < 2048 := by omega
  rw [dif_pos hlt]
  refine congrArg (term Q K V M b h q d) (Fin.ext ?_)
  show 256 * a.val + kk.val = (finProdFinEquiv (a, kk)).val
  rw [finProdFinEquiv_apply_val]
  show 256 * a.val + kk.val = kk.val + 256 * a.val
  omega

end Cert.Attn

end
-- ==== Proof.Pieces.lean ====
/-
  What one grid step leaves behind, as values. The accumulator scratch after a step holds the
  previous contents plus the step's contribution (at the first key block: the zero block plus the
  contribution); at the last key block the output block is the accumulator, re-laid with a leading
  unit axis. Each is the one covering store's payload, its loads reading whole buffers.
-/
import proofs.«177176_j74663711474182_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AttnPieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem sout_B (c : Dev nD) (i : grid0.Coords) (arg3 : Memref sig .tc .vmem S1x16x256x64 .f32) (harg3 : arg3.IsWhole) (arg4 : Memref sig .tc .vmem S1x16x256x64 .f32) (harg4 : arg4.IsWhole) (arg5 : Memref sig .tc .vmem S1x16x256x64 .f32) (harg5 : arg5.IsWhole) (arg6 : Memref sig .tc .vmem S1x16x256x256 .i32) (harg6 : arg6.IsWhole) (arg7 : Memref sig .tc .vmem S1x16x256x64 .f32) (harg7 : arg7.IsWhole) (arg8 : Memref sig .tc .vmem S16x256x64 .f32) (harg8 : arg8.IsWhole) (hc0 : ¬cond0_0 i) (hc1 : ¬cond0_1 i)
    (x0 : Vec F S1x16x256x64 .f32) (x1 : Vec F S1x16x256x64 .f32) (x2 : Vec F S1x16x256x64 .f32) (x3 : Vec F S1x16x256x256 .i32) (xs0 : Vec F S16x256x64 .f32) :
    sout0_B_0 c i arg3 harg3 arg4 harg4 arg5 harg5 arg6 harg6 arg7 harg7 arg8 harg8 hc0 hc1 x0 x1 x2 x3 xs0 = k0_pay1 (k0_pay4 x0 x1 x2 x3) xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz3]
  simp only [View.readAt_eq_ld, harg3.read_unread, harg4.read_unread, harg5.read_unread, harg6.read_unread, harg8.read_unread,
    View.ld_unit_zero (S := S16x256x64) hz3, View.ld_unit_zero (S := S1x16x256x64) hz4, View.ld_unit_zero (S := S1x16x256x256) hz4]

theorem sout_A (c : Dev nD) (i : grid0.Coords) (arg3 : Memref sig .tc .vmem S1x16x256x64 .f32) (harg3 : arg3.IsWhole) (arg4 : Memref sig .tc .vmem S1x16x256x64 .f32) (harg4 : arg4.IsWhole) (arg5 : Memref sig .tc .vmem S1x16x256x64 .f32) (harg5 : arg5.IsWhole) (arg6 : Memref sig .tc .vmem S1x16x256x256 .i32) (harg6 : arg6.IsWhole) (arg7 : Memref sig .tc .vmem S1x16x256x64 .f32) (harg7 : arg7.IsWhole) (arg8 : Memref sig .tc .vmem S16x256x64 .f32) (harg8 : arg8.IsWhole) (hc0 : cond0_0 i) (hc1 : ¬cond0_1 i)
    (x0 : Vec F S1x16x256x64 .f32) (x1 : Vec F S1x16x256x64 .f32) (x2 : Vec F S1x16x256x64 .f32) (x3 : Vec F S1x16x256x256 .i32) :
    sout0_A_0 c i arg3 harg3 arg4 harg4 arg5 harg5 arg6 harg6 arg7 harg7 arg8 harg8 hc0 hc1 x0 x1 x2 x3 = k0_pay1 (k0_pay4 x0 x1 x2 x3) (k0_pay3 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S16x256x64) hz3, View.readCov_unit_zero (S := S16x256x64) _ hz3]
  simp only [View.readAt_eq_ld, harg3.read_unread, harg4.read_unread, harg5.read_unread, harg6.read_unread, harg8.read_unread,
    View.ld_unit_zero (S := S16x256x64) hz3, View.ld_unit_zero (S := S1x16x256x64) hz4, View.ld_unit_zero (S := S1x16x256x256) hz4]

theorem sout_C (c : Dev nD) (i : grid0.Coords) (arg3 : Memref sig .tc .vmem S1x16x256x64 .f32) (harg3 : arg3.IsWhole) (arg4 : Memref sig .tc .vmem S1x16x256x64 .f32) (harg4 : arg4.IsWhole) (arg5 : Memref sig .tc .vmem S1x16x256x64 .f32) (harg5 : arg5.IsWhole) (arg6 : Memref sig .tc .vmem S1x16x256x256 .i32) (harg6 : arg6.IsWhole) (arg7 : Memref sig .tc .vmem S1x16x256x64 .f32) (harg7 : arg7.IsWhole) (arg8 : Memref sig .tc .vmem S16x256x64 .f32) (harg8 : arg8.IsWhole) (hc0 : ¬cond0_0 i) (hc1 : cond0_1 i)
    (x0 : Vec F S1x16x256x64 .f32) (x1 : Vec F S1x16x256x64 .f32) (x2 : Vec F S1x16x256x64 .f32) (x3 : Vec F S1x16x256x256 .i32) (xs0 : Vec F S16x256x64 .f32) :
    sout0_C_0 c i arg3 harg3 arg4 harg4 arg5 harg5 arg6 harg6 arg7 harg7 arg8 harg8 hc0 hc1 x0 x1 x2 x3 xs0 = k0_pay1 (k0_pay4 x0 x1 x2 x3) xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread,
    View.ld_unit_zero (S := S16x256x64) hz3, View.ld_unit_zero (S := S1x16x256x64) hz4, View.ld_unit_zero (S := S1x16x256x256) hz4]

theorem out_C (c : Dev nD) (i : grid0.Coords) (arg3 : Memref sig .tc .vmem S1x16x256x64 .f32) (harg3 : arg3.IsWhole) (arg4 : Memref sig .tc .vmem S1x16x256x64 .f32) (harg4 : arg4.IsWhole) (arg5 : Memref sig .tc .vmem S1x16x256x64 .f32) (harg5 : arg5.IsWhole) (arg6 : Memref sig .tc .vmem S1x16x256x256 .i32) (harg6 : arg6.IsWhole) (arg7 : Memref sig .tc .vmem S1x16x256x64 .f32) (harg7 : arg7.IsWhole) (arg8 : Memref sig .tc .vmem S16x256x64 .f32) (harg8 : arg8.IsWhole) (hc0 : ¬cond0_0 i) (hc1 : cond0_1 i)
    (x0 : Vec F S1x16x256x64 .f32) (x1 : Vec F S1x16x256x64 .f32) (x2 : Vec F S1x16x256x64 .f32) (x3 : Vec F S1x16x256x256 .i32) (xs0 : Vec F S16x256x64 .f32) :
    out0_C_4 c i arg3 harg3 arg4 harg4 arg5 harg5 arg6 harg6 arg7 harg7 arg8 harg8 hc0 hc1 x0 x1 x2 x3 xs0 = k0_pay2 (k0_pay1 (k0_pay4 x0 x1 x2 x3) xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz4, View.readCov_unit_zero (S := S16x256x64) _ hz3]
  simp only [View.readAt_eq_ld, harg3.read_unread, harg4.read_unread, harg5.read_unread, harg6.read_unread, harg8.read_unread,
    View.ld_unit_zero (S := S16x256x64) hz3, View.ld_unit_zero (S := S1x16x256x64) hz4, View.ld_unit_zero (S := S1x16x256x256) hz4]

end Cert.KernelIdeal.AttnPieces

end
-- ==== Proof.BlockValue.lean ====
/-
  One grid step's contribution, read at an index. From the step's blocks — Q rows, K rows, V rows
  (each [1,16,256,64]) and the mask block ([1,16,256,256], one word per bit) — the step computes,
  for head h, query row r and column d,
      ∑ kk, softmax over the sixteen heads of the masked scaled scores at (r, kk), taken at h,
            times V(h, kk, d):
  a batched product contracted over the 64 columns, a maximum and a sum over the head axis kept as
  a unit axis and broadcast back, and a batched product contracted over the 256 key rows.
-/
import proofs.«177176_j74663711474182_1_alg».proof.Proof.Gen.KernelIdeal.Skeleton
import proofs.«177176_j74663711474182_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnBlock

open Cert.KernelIdeal Cert.KernelIdeal.Gen Idealize.ShloMosaic Idealize.ShloMosaic.ValueIdx Cert.Attn
open Cert.KernelIdeal.Facts₀

/-! ## The two batched products' operand indices, axis by axis -/

theorem qk_l0 (i : S16x256x256.Idx) (q : dot_S16x256x64_S16x256x64_S16x256x256_2_2_1_1_0_0.contr.Idx) :
    (dot_S16x256x64_S16x256x64_S16x256x256_2_2_1_1_0_0.lhsIdx i q 0).val = (i 0).val := by
  unfold DotDims.lhsIdx
  rw [dif_pos (show (0 : Fin S16x256x64.rank) ∈ dot_S16x256x64_S16x256x64_S16x256x256_2_2_1_1_0_0.lhsBatch by decide)]
  rfl
theorem qk_l1 (i : S16x256x256.Idx) (q : dot_S16x256x64_S16x256x64_S16x256x256_2_2_1_1_0_0.contr.Idx) :
    (dot_S16x256x64_S16x256x64_S16x256x256_2_2_1_1_0_0.lhsIdx i q 1).val = (i 1).val := by
  unfold DotDims.lhsIdx
  rw [dif_neg (show ¬(1 : Fin S16x256x64.rank) ∈ dot_S16x256x64_S16x256x64_S16x256x256_2_2_1_1_0_0.lhsBatch by decide), dif_pos (show (1 : Fin S16x256x64.rank) ∈ dot_S16x256x64_S16x256x64_S16x256x256_2_2_1_1_0_0.lhsNonContracting by decide)]
  rfl
theorem qk_l2 (i : S16x256x256.Idx) (q : dot_S16x256x64_S16x256x64_S16x256x256_2_2_1_1_0_0.contr.Idx) :
    (dot_S16x256x64_S16x256x64_S16x256x256_2_2_1_1_0_0.lhsIdx i q 2).val = (q ⟨0, by decide⟩).val :=
  dot_S16x256x64_S16x256x64_S16x256x256_2_2_1_1_0_0.lhsIdx_val_of_single rfl i q
theorem qk_r0 (i : S16x256x256.Idx) (q : dot_S16x256x64_S16x256x64_S16x256x256_2_2_1_1_0_0.contr.Idx) :
    (dot_S16x256x64_S16x256x64_S16x256x256_2_2_1_1_0_0.rhsIdx i q 0).val = (i 0).val := by
  unfold DotDims.rhsIdx
  rw [dif_pos (show (0 : Fin S16x256x64.rank) ∈ dot_S16x256x64_S16x256x64_S16x256x256_2_2_1_1_0_0.rhsBatch by decide)]
  rfl
theorem qk_r1 (i : S16x256x256.Idx) (q : dot_S16x256x64_S16x256x64_S16x256x256_2_2_1_1_0_0.contr.Idx) :
    (dot_S16x256x64_S16x256x64_S16x256x256_2_2_1_1_0_0.rhsIdx i q 1).val = (i 2).val := by
  unfold DotDims.rhsIdx
  rw [dif_neg (show ¬(1 : Fin S16x256x64.rank) ∈ dot_S16x256x64_S16x256x64_S16x256x256_2_2_1_1_0_0.rhsBatch by decide), dif_pos (show (1 : Fin S16x256x64.rank) ∈ dot_S16x256x64_S16x256x64_S16x256x256_2_2_1_1_0_0.rhsNonContracting by decide)]
  rfl
theorem qk_r2 (i : S16x256x256.Idx) (q : dot_S16x256x64_S16x256x64_S16x256x256_2_2_1_1_0_0.contr.Idx) :
    (dot_S16x256x64_S16x256x64_S16x256x256_2_2_1_1_0_0.rhsIdx i q 2).val = (q ⟨0, by decide⟩).val :=
  dot_S16x256x64_S16x256x64_S16x256x256_2_2_1_1_0_0.rhsIdx_val_of_single rfl i q
theorem av_l0 (i : S16x256x64.Idx) (q : dot_S16x256x256_S16x256x64_S16x256x64_2_1_1_2_0_0.contr.Idx) :
    (dot_S16x256x256_S16x256x64_S16x256x64_2_1_1_2_0_0.lhsIdx i q 0).val = (i 0).val := by
  unfold DotDims.lhsIdx
  rw [dif_pos (show (0 : Fin S16x256x256.rank) ∈ dot_S16x256x256_S16x256x64_S16x256x64_2_1_1_2_0_0.lhsBatch by decide)]
  rfl
theorem av_l1 (i : S16x256x64.Idx) (q : dot_S16x256x256_S16x256x64_S16x256x64_2_1_1_2_0_0.contr.Idx) :
    (dot_S16x256x256_S16x256x64_S16x256x64_2_1_1_2_0_0.lhsIdx i q 1).val = (i 1).val := by
  unfold DotDims.lhsIdx
  rw [dif_neg (show ¬(1 : Fin S16x256x256.rank) ∈ dot_S16x256x256_S16x256x64_S16x256x64_2_1_1_2_0_0.lhsBatch by decide), dif_pos (show (1 : Fin S16x256x256.rank) ∈ dot_S16x256x256_S16x256x64_S16x256x64_2_1_1_2_0_0.lhsNonContracting by decide)]
  rfl
theorem av_l2 (i : S16x256x64.Idx) (q : dot_S16x256x256_S16x256x64_S16x256x64_2_1_1_2_0_0.contr.Idx) :
    (dot_S16x256x256_S16x256x64_S16x256x64_2_1_1_2_0_0.lhsIdx i q 2).val = (q ⟨0, by decide⟩).val :=
  dot_S16x256x256_S16x256x64_S16x256x64_2_1_1_2_0_0.lhsIdx_val_of_single rfl i q
theorem av_r0 (i : S16x256x64.Idx) (q : dot_S16x256x256_S16x256x64_S16x256x64_2_1_1_2_0_0.contr.Idx) :
    (dot_S16x256x256_S16x256x64_S16x256x64_2_1_1_2_0_0.rhsIdx i q 0).val = (i 0).val := by
  unfold DotDims.rhsIdx
  rw [dif_pos (show (0 : Fin S16x256x64.rank) ∈ dot_S16x256x256_S16x256x64_S16x256x64_2_1_1_2_0_0.rhsBatch by decide)]
  rfl
theorem av_r1 (i : S16x256x64.Idx) (q : dot_S16x256x256_S16x256x64_S16x256x64_2_1_1_2_0_0.contr.Idx) :
    (dot_S16x256x256_S16x256x64_S16x256x64_2_1_1_2_0_0.rhsIdx i q 1).val = (q ⟨0, by decide⟩).val :=
  dot_S16x256x256_S16x256x64_S16x256x64_2_1_1_2_0_0.rhsIdx_val_of_single rfl i q
theorem av_r2 (i : S16x256x64.Idx) (q : dot_S16x256x256_S16x256x64_S16x256x64_2_1_1_2_0_0.contr.Idx) :
    (dot_S16x256x256_S16x256x64_S16x256x64_2_1_1_2_0_0.rhsIdx i q 2).val = (i 2).val := by
  unfold DotDims.rhsIdx
  rw [dif_neg (show ¬(2 : Fin S16x256x64.rank) ∈ dot_S16x256x256_S16x256x64_S16x256x64_2_1_1_2_0_0.rhsBatch by decide), dif_pos (show (2 : Fin S16x256x64.rank) ∈ dot_S16x256x256_S16x256x64_S16x256x64_2_1_1_2_0_0.rhsNonContracting by decide)]
  rfl

/-- The score product at (h, r, kk): the sum over the 64 columns of row r of the left block times row kk of the right. -/
theorem qk_apply (A B : FVec Ideal S16x256x64 .bf16) (h : Fin 16) (r kk : Fin 256) :
    matmul dot_S16x256x64_S16x256x64_S16x256x256_2_2_1_1_0_0 none A B (constant S16x256x256 .f32 0x00000000#32) (ix3 h r kk)
      = ∑ dd : Fin 64, A (ix3 h r dd) * B (ix3 h kk dd) := by
  simp only [matmul]
  rw [Ideal.matmul_constant_zero_apply, ← Equiv.sum_comp (contrEquiv1 dot_S16x256x64_S16x256x64_S16x256x256_2_2_1_1_0_0 64 rfl rfl).symm]
  refine Finset.sum_congr rfl fun k _ => ?_
  have hk := contrEquiv1_symm_val dot_S16x256x64_S16x256x64_S16x256x256_2_2_1_1_0_0 64 rfl rfl k
  have el : dot_S16x256x64_S16x256x64_S16x256x256_2_2_1_1_0_0.lhsIdx (ix3 h r kk) ((contrEquiv1 dot_S16x256x64_S16x256x64_S16x256x256_2_2_1_1_0_0 64 rfl rfl).symm k) = ix3 h r k := funext fun a => Fin.ext (by
    match a with
    | ⟨0, _⟩ => exact qk_l0 _ _
    | ⟨1, _⟩ => exact qk_l1 _ _
    | ⟨2, _⟩ => exact (qk_l2 _ _).trans hk)
  have er : dot_S16x256x64_S16x256x64_S16x256x256_2_2_1_1_0_0.rhsIdx (ix3 h r kk) ((contrEquiv1 dot_S16x256x64_S16x256x64_S16x256x256_2_2_1_1_0_0 64 rfl rfl).symm k) = ix3 h kk k := funext fun a => Fin.ext (by
    match a with
    | ⟨0, _⟩ => exact qk_r0 _ _
    | ⟨1, _⟩ => exact qk_r1 _ _
    | ⟨2, _⟩ => exact (qk_r2 _ _).trans hk)
  rw [el, er]

/-- The weighted sum at (h, r, d): the sum over the 256 key rows of the weights' row r times column d of the values. -/
theorem av_apply (P : FVec Ideal S16x256x256 .bf16) (B : FVec Ideal S16x256x64 .bf16) (h : Fin 16) (r : Fin 256) (d : Fin 64) :
    matmul dot_S16x256x256_S16x256x64_S16x256x64_2_1_1_2_0_0 none P B (constant S16x256x64 .f32 0x00000000#32) (ix3 h r d)
      = ∑ kk : Fin 256, P (ix3 h r kk) * B (ix3 h kk d) := by
  simp only [matmul]
  rw [Ideal.matmul_constant_zero_apply, ← Equiv.sum_comp (contrEquiv1 dot_S16x256x256_S16x256x64_S16x256x64_2_1_1_2_0_0 256 rfl rfl).symm]
  refine Finset.sum_congr rfl fun k _ => ?_
  have hk := contrEquiv1_symm_val dot_S16x256x256_S16x256x64_S16x256x64_2_1_1_2_0_0 256 rfl rfl k
  have el : dot_S16x256x256_S16x256x64_S16x256x64_2_1_1_2_0_0.lhsIdx (ix3 h r d) ((contrEquiv1 dot_S16x256x256_S16x256x64_S16x256x64_2_1_1_2_0_0 256 rfl rfl).symm k) = ix3 h r k := funext fun a => Fin.ext (by
    match a with
    | ⟨0, _⟩ => exact av_l0 _ _
    | ⟨1, _⟩ => exact av_l1 _ _
    | ⟨2, _⟩ => exact (av_l2 _ _).trans hk)
  have er : dot_S16x256x256_S16x256x64_S16x256x64_2_1_1_2_0_0.rhsIdx (ix3 h r d) ((contrEquiv1 dot_S16x256x256_S16x256x64_S16x256x64_2_1_1_2_0_0 256 rfl rfl).symm k) = ix3 h k d := funext fun a => Fin.ext (by
    match a with
    | ⟨0, _⟩ => exact av_r0 _ _
    | ⟨1, _⟩ => exact (av_r1 _ _).trans hk
    | ⟨2, _⟩ => exact av_r2 _ _)
  rw [el, er]

/-! ## The head axis reduced, kept as a unit axis, and broadcast back -/

/-- A [256,256] array given a leading unit axis and broadcast over the sixteen heads reads, at (h, r, kk), the array at (r, kk). -/
theorem keep_apply {α : Type} (y : S256x256.Idx → α) (hsc : S256x256.ShapeCasts S1x256x256)
    (hbc : S1x256x256.Broadcasts S16x256x256) (h : Fin 16) (r kk : Fin 256) :
    broadcastTo S16x256x256 (shapeCast S1x256x256 y hsc) hbc (ix3 h r kk) = y (ix2 r kk) := by
  refine (broadcastTo_apply (shapeCast S1x256x256 y hsc) hbc (ix3 h r kk) (ix3 (0 : Fin 1) r kk) fun a => ?_).trans
    (shapeCast_ab_1ab_apply y hsc 0 r kk)
  match a with
  | ⟨0, _⟩ => show 0 = if (1 : Nat) = 1 then 0 else h.val; rw [if_pos rfl]
  | ⟨1, _⟩ => show r.val = if (256 : Nat) = 1 then 0 else r.val; rw [if_neg (by decide)]
  | ⟨2, _⟩ => show kk.val = if (256 : Nat) = 1 then 0 else kk.val; rw [if_neg (by decide)]

/-- The reduced index (r, kk) with head k put back is (k, r, kk). -/
theorem lift_heads (hred : S16x256x256.Reduces [0] S256x256) (r kk : Fin 256) (k : Fin (S16x256x256.size 0)) :
    hred.lift (ix2 r kk) k = ix3 (⟨k.val, k.isLt⟩ : Fin 16) r kk := by
  funext c; apply Fin.ext
  match c with
  | ⟨0, _⟩ => rfl
  | ⟨1, _⟩ => rfl
  | ⟨2, _⟩ => rfl

/-- The maximum over the heads, from -∞, at (r, kk). -/
theorem top_apply (s : FVec Ideal S16x256x256 .f32) (hred : S16x256x256.Reduces [0] S256x256) (hφ : FKind.Formats .f32)
    (hacc : (0xFF800000#32 : BitVec (FTy.bits .f32)) = FKind.maximumf.neutral .f32 hφ) (r kk : Fin 256) :
    multiReduction .maximumf [0] S256x256 s 0xFF800000#32 hred hφ hacc (ix2 r kk) = top16 (fun h' => s (ix3 h' r kk)) := by
  refine (Ideal.multiReduction_maximumf_single s _ hred hφ hacc (ix2 r kk)).trans ?_
  have hf : (s ∘ hred.lift (ix2 r kk)) = fun h' : Fin 16 => s (ix3 h' r kk) :=
    funext fun k => congrArg s (lift_heads hred r kk k)
  exact congrArg (fun f => Finset.fold max (Ideal.ofBits .f32 0xFF800000#32) f (Finset.univ : Finset (Fin 16))) hf

/-- The sum over the heads at (r, kk). -/
theorem headsum_apply (e : FVec Ideal S16x256x256 .f32) (hred : S16x256x256.Reduces [0] S256x256) (hφ : FKind.Formats .f32)
    (hacc : (0x00000000#32 : BitVec (FTy.bits .f32)) = FKind.add.neutral .f32 hφ) (r kk : Fin 256) :
    multiReduction .add [0] S256x256 e 0x00000000#32 hred hφ hacc (ix2 r kk) = ∑ h' : Fin 16, e (ix3 h' r kk) :=
  (Ideal.multiReduction_add_single e _ hred hφ hacc (ix2 r kk)).trans
    (Finset.sum_congr rfl fun k _ => congrArg e (lift_heads hred r kk k))

/-- The softmax across the heads of a block of scores, at (h, r, kk). -/
theorem attn_apply (s : FVec Ideal S16x256x256 .f32) (hred : S16x256x256.Reduces [0] S256x256) (hφ : FKind.Formats .f32)
    (haccM : (0xFF800000#32 : BitVec (FTy.bits .f32)) = FKind.maximumf.neutral .f32 hφ)
    (haccA : (0x00000000#32 : BitVec (FTy.bits .f32)) = FKind.add.neutral .f32 hφ)
    (hsc : S256x256.ShapeCasts S1x256x256) (hbc : S1x256x256.Broadcasts S16x256x256) (hb : FTy.bits .bf16 < FTy.bits .f32)
    (h : Fin 16) (r kk : Fin 256) :
    truncf .bf16 (divf (exp (subf s (broadcastTo S16x256x256 (shapeCast S1x256x256 (multiReduction .maximumf [0] S256x256 s 0xFF800000#32 hred hφ haccM) hsc) hbc)))
        (broadcastTo S16x256x256 (shapeCast S1x256x256 (multiReduction .add [0] S256x256
          (exp (subf s (broadcastTo S16x256x256 (shapeCast S1x256x256 (multiReduction .maximumf [0] S256x256 s 0xFF800000#32 hred hφ haccM) hsc) hbc)))
          0x00000000#32 hred hφ haccA) hsc) hbc)) hb (ix3 h r kk)
      = softmax16 (fun h' => s (ix3 h' r kk)) h := by
  have hm : ∀ h' : Fin 16, broadcastTo S16x256x256 (shapeCast S1x256x256 (multiReduction .maximumf [0] S256x256 s 0xFF800000#32 hred hφ haccM) hsc) hbc (ix3 h' r kk)
      = top16 (fun h'' => s (ix3 h'' r kk)) := fun h' => (keep_apply _ hsc hbc h' r kk).trans (top_apply s hred hφ haccM r kk)
  have he : ∀ h' : Fin 16, exp (subf s (broadcastTo S16x256x256 (shapeCast S1x256x256 (multiReduction .maximumf [0] S256x256 s 0xFF800000#32 hred hφ haccM) hsc) hbc)) (ix3 h' r kk)
      = Ideal.exp (s (ix3 h' r kk) - top16 (fun h'' => s (ix3 h'' r kk))) := fun h' => congrArg (fun z => Ideal.exp (s (ix3 h' r kk) - z)) (hm h')
  unfold softmax16
  show Ideal.div _ _ = Ideal.div _ _
  refine congrArg₂ Ideal.div (he h) ?_
  refine (keep_apply _ hsc hbc h r kk).trans ((headsum_apply _ hred hφ haccA r kk).trans ?_)
  exact Finset.sum_congr rfl fun h' _ => he h'

/-! ## The step's scores and its contribution -/

/-- The masked scaled scores of a step's blocks at (h, r, kk): the mask word is compared with zero, the dot product of
    Q's row r and K's row kk over the 64 columns is scaled by 1/8. -/
theorem score_apply (x0 x1 : Vec Ideal S1x16x256x64 .f32) (x3 : Vec Ideal S1x16x256x256 .i32)
    (hs3 : S1x16x256x256.ShapeCasts S16x256x256) (hs : S1x16x256x64.ShapeCasts S16x256x64) (hb : FTy.bits .bf16 < FTy.bits .f32)
    (h : Fin 16) (r kk : Fin 256) :
    select (cmpi .ne (shapeCast S16x256x256 x3 hs3) (constantI S16x256x256 32 0#32))
        (broadcast S16x256x256 (Scalar.ofBits (F := Ideal) .f32 0xCE6E6B28#32))
        (mulf (matmul dot_S16x256x64_S16x256x64_S16x256x256_2_2_1_1_0_0 none (truncf .bf16 (shapeCast S16x256x64 x0 hs) hb)
            (truncf .bf16 (shapeCast S16x256x64 x1 hs) hb) (constant S16x256x256 .f32 0x00000000#32))
          (broadcast S16x256x256 (Scalar.ofBits (F := Ideal) .f32 0x3E000000#32))) (ix3 h r kk)
      = cell (Scalar.cmpi .ne (x3 (ix4 (0 : Fin 1) h r kk)) 0#32)
          (∑ dd : Fin 64, x0 (ix4 (0 : Fin 1) h r dd) * x1 (ix4 (0 : Fin 1) h kk dd)) := by
  have e1 : shapeCast S16x256x256 x3 hs3 (ix3 h r kk) = x3 (ix4 (0 : Fin 1) h r kk) := shapeCast_1abc_abc_apply x3 hs3 h r kk
  have e2 := qk_apply (truncf .bf16 (shapeCast S16x256x64 x0 hs) hb) (truncf .bf16 (shapeCast S16x256x64 x1 hs) hb) h r kk
  have e3 : ∀ dd : Fin 64, (truncf .bf16 (shapeCast S16x256x64 x0 hs) hb : FVec Ideal S16x256x64 .bf16) (ix3 h r dd) = x0 (ix4 (0 : Fin 1) h r dd) :=
    fun dd => shapeCast_1abc_abc_apply x0 hs h r dd
  have e4 : ∀ dd : Fin 64, (truncf .bf16 (shapeCast S16x256x64 x1 hs) hb : FVec Ideal S16x256x64 .bf16) (ix3 h kk dd) = x1 (ix4 (0 : Fin 1) h kk dd) :=
    fun dd => shapeCast_1abc_abc_apply x1 hs h kk dd
  simp only [e3, e4] at e2
  unfold cell
  show Scalar.select (Scalar.cmpi .ne (shapeCast S16x256x256 x3 hs3 (ix3 h r kk)) 0#32) (Ideal.ofBits .f32 0xCE6E6B28#32)
    (matmul dot_S16x256x64_S16x256x64_S16x256x256_2_2_1_1_0_0 none (truncf .bf16 (shapeCast S16x256x64 x0 hs) hb)
      (truncf .bf16 (shapeCast S16x256x64 x1 hs) hb) (constant S16x256x256 .f32 0x00000000#32) (ix3 h r kk) * Ideal.ofBits .f32 0x3E000000#32) = _
  rw [e1, e2]

/-- The step's contribution at (h, r, d): over the block's 256 key rows, the head-axis softmax of the scores times V. -/
theorem pay4_apply (x0 x1 x2 : Vec Ideal S1x16x256x64 .f32) (x3 : Vec Ideal S1x16x256x256 .i32) (h : Fin 16) (r : Fin 256) (d : Fin 64) :
    k0_pay4 (F := Ideal) x0 x1 x2 x3 (ix3 h r d)
      = ∑ kk : Fin 256, softmax16 (fun h' => cell (Scalar.cmpi .ne (x3 (ix4 (0 : Fin 1) h' r kk)) 0#32)
          (∑ dd : Fin 64, x0 (ix4 (0 : Fin 1) h' r dd) * x1 (ix4 (0 : Fin 1) h' kk dd))) h * x2 (ix4 (0 : Fin 1) h kk d) := by
  unfold k0_pay4
  dsimp only
  refine (av_apply _ _ h r d).trans (Finset.sum_congr rfl fun kk _ => ?_)
  refine congrArg₂ (· * ·) ?_ (shapeCast_1abc_abc_apply x2 _ h kk d)
  refine (attn_apply _ _ _ _ _ _ _ _ h r kk).trans ?_
  exact congrArg (fun σ => softmax16 σ h) (funext fun h' => score_apply x0 x1 x3 _ _ _ h' r kk)

end Cert.KernelIdeal.AttnBlock

end
-- ==== Proof.BlockRead.lean ====
/-
  The blocks a grid step reads, as entries of the argument arrays. Step t is batch t / 64, query
  block (t / 8) % 8 and key block t % 8. Its Q block holds rows 256·((t/8)%8) … of batch t/64 (all
  heads); its K and V blocks hold rows 256·(t%8) …; its mask block holds those query rows against
  those key rows, each bit widened to a word by the conversion that runs before the call.
-/
import proofs.«177176_j74663711474182_1_alg».proof.Proof.Gen.KernelIdeal.Frame.Runs
import Idealize.ShloMosaic.Lib.ValueIdx
import Idealize.ShloMosaic.Lib.Pipeline.Value
import Idealize.ShloMosaic.Lib.StableHlo.Run

noncomputable section

namespace Cert.KernelIdeal.AttnRead

open Cert.KernelIdeal Cert.KernelIdeal.Gen Idealize.ShloMosaic Idealize.ShloMosaic.ValueIdx Idealize.ShloMosaic.TcCoe Idealize.SL.Sem
open Cert.KernelIdeal.Facts₀

variable {F : FTy → Type} [FloatOps F]
variable (m : (ℓ : Loc nD τ sig) → Buf (Elt F) ℓ)

/-- The five windows' block indices at step t. -/
theorem idx_facts : ∀ t : Fin cfg0.N,
    (win0_0.index t (0 : Fin 4) = t.val / 64 ∧ win0_0.index t (1 : Fin 4) = 0 ∧ win0_0.index t (2 : Fin 4) = (t.val / 8) % 8 ∧ win0_0.index t (3 : Fin 4) = 0)
    ∧ (win0_1.index t (0 : Fin 4) = t.val / 64 ∧ win0_1.index t (1 : Fin 4) = 0 ∧ win0_1.index t (2 : Fin 4) = t.val % 8 ∧ win0_1.index t (3 : Fin 4) = 0)
    ∧ (win0_2.index t (0 : Fin 4) = t.val / 64 ∧ win0_2.index t (1 : Fin 4) = 0 ∧ win0_2.index t (2 : Fin 4) = t.val % 8 ∧ win0_2.index t (3 : Fin 4) = 0)
    ∧ (win0_3.index t (0 : Fin 4) = t.val / 64 ∧ win0_3.index t (1 : Fin 4) = 0 ∧ win0_3.index t (2 : Fin 4) = (t.val / 8) % 8 ∧ win0_3.index t (3 : Fin 4) = t.val % 8)
    ∧ (win0_4.index t (0 : Fin 4) = t.val / 64 ∧ win0_4.index t (1 : Fin 4) = 0 ∧ win0_4.index t (2 : Fin 4) = (t.val / 8) % 8 ∧ win0_4.index t (3 : Fin 4) = 0) :=
  (by decide +kernel : ∀ t : Fin grid0.N, _)

/-- The Q block. -/
theorem readQ (c : Dev nD) (t : Fin cfg0.N) (h : Fin 16) (r : Fin 256) (dd : Fin 64)
    (hb : t.val / 64 < 2) (hq : 256 * ((t.val / 8) % 8) + r.val < 2048) :
    iblk m c 0 t (ix4 (0 : Fin 1) h r dd)
      = m ((c : Thread nD τ).loc main_arg0) (ix4 (⟨t.val / 64, hb⟩ : Fin 2) h (⟨256 * ((t.val / 8) % 8) + r.val, hq⟩ : Fin 2048) dd) := by
  obtain ⟨⟨e0, e1, e2, e3⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = t.val / 64; omega
  | ⟨1, _⟩ => show win0_0.index t (1 : Fin 4) * 16 + 1 * h.val = h.val; omega
  | ⟨2, _⟩ => show win0_0.index t (2 : Fin 4) * 256 + 1 * r.val = 256 * ((t.val / 8) % 8) + r.val; omega
  | ⟨3, _⟩ => show win0_0.index t (3 : Fin 4) * 64 + 1 * dd.val = dd.val; omega

/-- The K block. -/
theorem readK (c : Dev nD) (t : Fin cfg0.N) (h : Fin 16) (kk : Fin 256) (dd : Fin 64)
    (hb : t.val / 64 < 2) (hk : 256 * (t.val % 8) + kk.val < 2048) :
    iblk m c 1 t (ix4 (0 : Fin 1) h kk dd)
      = m ((c : Thread nD τ).loc main_arg1) (ix4 (⟨t.val / 64, hb⟩ : Fin 2) h (⟨256 * (t.val % 8) + kk.val, hk⟩ : Fin 2048) dd) := by
  obtain ⟨-, ⟨e0, e1, e2, e3⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 4) * 1 + 1 * 0 = t.val / 64; omega
  | ⟨1, _⟩ => show win0_1.index t (1 : Fin 4) * 16 + 1 * h.val = h.val; omega
  | ⟨2, _⟩ => show win0_1.index t (2 : Fin 4) * 256 + 1 * kk.val = 256 * (t.val % 8) + kk.val; omega
  | ⟨3, _⟩ => show win0_1.index t (3 : Fin 4) * 64 + 1 * dd.val = dd.val; omega

/-- The V block. -/
theorem readV (c : Dev nD) (t : Fin cfg0.N) (h : Fin 16) (kk : Fin 256) (dd : Fin 64)
    (hb : t.val / 64 < 2) (hk : 256 * (t.val % 8) + kk.val < 2048) :
    iblk m c 2 t (ix4 (0 : Fin 1) h kk dd)
      = m ((c : Thread nD τ).loc main_arg2) (ix4 (⟨t.val / 64, hb⟩ : Fin 2) h (⟨256 * (t.val % 8) + kk.val, hk⟩ : Fin 2048) dd) := by
  obtain ⟨-, -, ⟨e0, e1, e2, e3⟩, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 4) * 1 + 1 * 0 = t.val / 64; omega
  | ⟨1, _⟩ => show win0_2.index t (1 : Fin 4) * 16 + 1 * h.val = h.val; omega
  | ⟨2, _⟩ => show win0_2.index t (2 : Fin 4) * 256 + 1 * kk.val = 256 * (t.val % 8) + kk.val; omega
  | ⟨3, _⟩ => show win0_2.index t (3 : Fin 4) * 64 + 1 * dd.val = dd.val; omega

/-- The mask as the call finds it: each bit widened to a 32-bit word. -/
theorem V_mask (c : Dev nD) :
    (V m c main_v0 : S2x16x2048x2048.Idx → BitVec 32) = extui 32 (m ((c : Thread nD τ).loc main_arg3)) Facts₀.natLt_1_32 := by
  dsimp only [Gen.V, Gen.hostOps0]
  after_results

/-- The mask block. -/
theorem readM (c : Dev nD) (t : Fin cfg0.N) (h : Fin 16) (r kk : Fin 256)
    (hb : t.val / 64 < 2) (hq : 256 * ((t.val / 8) % 8) + r.val < 2048) (hk : 256 * (t.val % 8) + kk.val < 2048) :
    iblk m c 3 t (ix4 (0 : Fin 1) h r kk)
      = (m ((c : Thread nD τ).loc main_arg3) (ix4 (⟨t.val / 64, hb⟩ : Fin 2) h (⟨256 * ((t.val / 8) % 8) + r.val, hq⟩ : Fin 2048)
          (⟨256 * (t.val % 8) + kk.val, hk⟩ : Fin 2048))).setWidth 32 := by
  obtain ⟨-, -, -, ⟨e0, e1, e2, e3⟩, -⟩ := idx_facts t
  unfold iblk
  rw [View.read_apply]
  show V m c main_v0 _ = _
  rw [V_mask]
  show (m ((c : Thread nD τ).loc main_arg3) _).setWidth 32 = _
  refine congrArg (fun j => (m ((c : Thread nD τ).loc main_arg3) j).setWidth 32) (funext fun a => Fin.ext ?_)
  match a with
  | ⟨0, _⟩ => show win0_3.index t (0 : Fin 4) * 1 + 1 * 0 = t.val / 64; omega
  | ⟨1, _⟩ => show win0_3.index t (1 : Fin 4) * 16 + 1 * h.val = h.val; omega
  | ⟨2, _⟩ => show win0_3.index t (2 : Fin 4) * 256 + 1 * r.val = 256 * ((t.val / 8) % 8) + r.val; omega
  | ⟨3, _⟩ => show win0_3.index t (3 : Fin 4) * 256 + 1 * kk.val = 256 * (t.val % 8) + kk.val; omega

end Cert.KernelIdeal.AttnRead

end
-- ==== Proof.Fold.lean ====
/-
  The accumulator across the eight key blocks of one (batch, query block). It is reset to the zero
  block at the first key block and each step adds its contribution, so after the eighth step it
  holds, at every index, zero plus the sum of the eight contributions.
-/
import proofs.«177176_j74663711474182_1_alg».proof.Proof.Gen.KernelIdeal.Value
import proofs.«177176_j74663711474182_1_alg».proof.Proof.Pieces
import Idealize.ShloMosaic.Lib.ValueIdx
import Idealize.ShloMosaic.Lib.Pipeline.Value

noncomputable section

open scoped BigOperators

namespace Cert.KernelIdeal.AttnFold

open Cert.KernelIdeal Cert.KernelIdeal.Gen Cert.KernelIdeal.AttnPieces Idealize.ShloMosaic Idealize.ShloMosaic.ValueIdx
open Idealize.ShloMosaic.TcCoe Idealize.SL.Sem

variable (m : (ℓ : Loc nD τ sig) → Buf (Elt Ideal) ℓ)

/-- Step n's contribution to the accumulator (the zero block past the grid's last step). -/
def contrib (c : Dev nD) (n : Nat) : S16x256x64.Idx → EReal :=
  if hn : n < cfg0.N then
    k0_pay4 (F := Ideal) (iblk m c 0 ⟨n, hn⟩) (iblk m c 1 ⟨n, hn⟩) (iblk m c 2 ⟨n, hn⟩) (iblk m c 3 ⟨n, hn⟩)
  else fun _ => 0

theorem contrib_of_lt (c : Dev nD) (n : Nat) (hn : n < cfg0.N) :
    contrib m c n = k0_pay4 (F := Ideal) (iblk m c 0 ⟨n, hn⟩) (iblk m c 1 ⟨n, hn⟩) (iblk m c 2 ⟨n, hn⟩) (iblk m c 3 ⟨n, hn⟩) := by
  unfold contrib
  rw [dif_pos hn]

/-- The accumulating store's value at an index: what the accumulator held plus the contribution. -/
theorem pay1_apply (v30 : FVec Ideal S16x256x64 .f32) (v31 : Vec Ideal S16x256x64 .f32) (i : S16x256x64.Idx) :
    k0_pay1 (F := Ideal) v30 v31 i = v31 i + v30 i := by
  unfold k0_pay1
  rw [shapeCast_self]
  rfl

/-- After the last key block's step the accumulator is the zero block plus the eight steps' contributions. -/
theorem scratch_at (c : Dev nD) (t : Fin cfg0.N) (h7 : t.val % 8 = 7) (i : S16x256x64.Idx) :
    (outsAt0 m c t.val t.isLt).2 i
      = k0_pay3 (F := Ideal) i + ∑ s ∈ Finset.range 8, contrib m c (8 * (t.val / 8) + s) i := by
  have hN : cfg0.N = 128 := N_0
  have htl : t.val < 128 := lt_of_lt_of_eq t.isLt hN
  rw [Value.soutsAt0_0_eq m c t]
  have key := Pipeline.accAt_add_apply (N := cfg0.N)
    (fun n h => Value.scAt0_0 m c n h (VS0_0.read (Elt Ideal) VS0_0.junk)) (Value.scAt0_0 m c)
    (k0_pay3 (F := Ideal)) (contrib m c) (8 * (t.val / 8)) 7
    (fun h i => by
      have h0 : (8 * (t.val / 8)) % 8 = 0 := Nat.mul_mod_right 8 _
      have h1 : ¬(8 * (t.val / 8)) % 8 = 7 := by omega
      show Value.scAt0_0 m c (8 * (t.val / 8)) h (VS0_0.read (Elt Ideal) VS0_0.junk) i = _
      unfold Value.scAt0_0
      rw [dif_pos h0, dif_neg h1, sout_A, pay1_apply, contrib_of_lt m c _ h])
    (fun n h acc i hlo hhi => by
      have h0 : ¬n % 8 = 0 := by omega
      show Value.scAt0_0 m c n h acc i = _
      unfold Value.scAt0_0
      by_cases h1 : n % 8 = 7
      · rw [dif_neg h0, dif_pos h1, sout_C, pay1_apply, contrib_of_lt m c _ h]
      · rw [dif_neg h0, dif_neg h1, sout_B, pay1_apply, contrib_of_lt m c _ h])
    (t.val % 8) (by omega) (by omega) i
  rw [key, h7]

end Cert.KernelIdeal.AttnFold

end
-- ==== Proof.KernelValue.lean ====
/-
  The kernel's result array is the specification's. A step's contribution, read through the blocks
  it loads, is the specification's partial sum over that step's 256 key rows; the accumulator after
  the eighth key block is therefore the whole sum over the 2048 key rows; the output block written
  back there is the accumulator with a leading unit axis; and the sixteen (batch, query block)
  output blocks tile the result array.
-/
import proofs.«177176_j74663711474182_1_alg».proof.Proof.Gen.KernelIdeal.Value
import proofs.«177176_j74663711474182_1_alg».proof.Proof.Spec
import proofs.«177176_j74663711474182_1_alg».proof.Proof.Pieces
import proofs.«177176_j74663711474182_1_alg».proof.Proof.BlockValue
import proofs.«177176_j74663711474182_1_alg».proof.Proof.BlockRead
import proofs.«177176_j74663711474182_1_alg».proof.Proof.Fold
import Idealize.ShloMosaic.Lib.ValueIdx
import Idealize.ShloMosaic.Lib.ValueLayout
import Idealize.ShloMosaic.Lib.Pipeline.Value

noncomputable section

open scoped BigOperators

namespace Cert.KernelIdeal.AttnValue

open Cert.KernelIdeal Cert.KernelIdeal.Gen Cert.KernelIdeal.AttnPieces Cert.KernelIdeal.AttnBlock Cert.KernelIdeal.AttnRead
open Cert.KernelIdeal.AttnFold Cert.Attn
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- A mask bit widened to a word and compared with zero is the bit again. -/
theorem bit_of_word (b : BitVec 1) : Scalar.cmpi .ne (b.setWidth 32) 0#32 = b := by
  rcases BitVec.eq_zero_or_eq_one b with h | h <;> subst h <;> decide

/-- Step n's contribution at (h, r, d) is the specification's partial sum over the step's key rows, for the step's
    batch b, query row 256·qi + r and key block s. -/
theorem contrib_eq (c : Dev nD) (n : Nat) (hn : n < cfg0.N) (h : Fin 16) (r : Fin 256) (d : Fin 64)
    (b : Fin 2) (qi s : Nat) (hb : n / 64 = b.val) (hqi : (n / 8) % 8 = qi) (hs : n % 8 = s) (hq : 256 * qi + r.val < 2048) :
    contrib m c n (ix3 h r d)
      = part (m ((c : Thread nD τ).loc main_arg0)) (m ((c : Thread nD τ).loc main_arg1)) (m ((c : Thread nD τ).loc main_arg2)) (m ((c : Thread nD τ).loc main_arg3)) b h (⟨256 * qi + r.val, hq⟩ : Fin 2048) d s := by
  subst hqi hs
  obtain ⟨bv, hbv⟩ := b
  have hb' : n / 64 = bv := hb
  subst hb'
  rw [contrib_of_lt m c n hn]
  refine (pay4_apply (iblk m c 0 ⟨n, hn⟩) (iblk m c 1 ⟨n, hn⟩) (iblk m c 2 ⟨n, hn⟩) (iblk m c 3 ⟨n, hn⟩) h r d).trans ?_
  unfold part
  refine Finset.sum_congr rfl fun kk _ => ?_
  have hk : 256 * (n % 8) + kk.val < 2048 := by have := kk.isLt; omega
  rw [dif_pos hk]
  unfold term weight
  refine congrArg₂ (· * ·) (congrArg (fun σ => softmax16 σ h) (funext fun h' => ?_)) (readV m c ⟨n, hn⟩ h kk d hbv hk)
  refine congrArg₂ cell ?_ (Finset.sum_congr rfl fun dd _ =>
    congrArg₂ (· * ·) (readQ m c ⟨n, hn⟩ h' r dd hbv hq) (readK m c ⟨n, hn⟩ h' kk dd hbv hk))
  exact (congrArg (fun w => Scalar.cmpi .ne w 0#32) (readM m c ⟨n, hn⟩ h' r kk hbv hq hk)).trans (bit_of_word _)

/-- The zero block the accumulator is reset to. -/
theorem pay3_apply (i : S16x256x64.Idx) : k0_pay3 (F := Ideal) i = 0 := by
  unfold k0_pay3
  rw [shapeCast_self]
  exact Ideal.ofBits_zero_f32

/-- What the last key block's step writes back is the specification's array read through the step's output block. -/
theorem flushed_eq (c : Dev nD) (t : Fin cfg0.N) (hf : (cfg0.win 4).flush t = true) :
    (dats m 0 c).flushed 4 t = ((cfg0.win 4).blk t).view.read (Elt Ideal) (G (m ((c : Thread nD τ).loc main_arg0)) (m ((c : Thread nD τ).loc main_arg1)) (m ((c : Thread nD τ).loc main_arg2)) (m ((c : Thread nD τ).loc main_arg3))) := by
  have h7 : t.val % 8 = 7 := (flush0_4 t).mp hf
  have h0 : ¬t.val % 8 = 0 := by omega
  have hN : cfg0.N = 128 := N_0
  have htl : t.val < 128 := lt_of_lt_of_eq t.isLt hN
  have hs : (outsAt0 m c t.val t.isLt).2
      = k0_pay1 (k0_pay4 (iblk m c 0 t) (iblk m c 1 t) (iblk m c 2 t) (iblk m c 3 t))
          (outsAt0 m c (t.val - 1) (Nat.lt_of_le_of_lt (Nat.sub_le _ _) t.isLt)).2 :=
    (congrArg Prod.snd (outsAt0_C m c t h0 h7)).trans
      (sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2)
  rw [Value.flushed4_C m c t h0 h7,
    out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2, ← hs]
  refine funext fun (j : S1x16x256x64.Idx) => ?_
  obtain ⟨u, h, r, d, rfl⟩ : ∃ (u : Fin 1) (h : Fin 16) (r : Fin 256) (d : Fin 64), j = ix4 u h r d :=
    ⟨j 0, j 1, j 2, j 3, eq_ix4 j⟩
  show k0_pay2 (F := Ideal) ((outsAt0 m c t.val t.isLt).2) (ix4 u h r d)
    = G (m ((c : Thread nD τ).loc main_arg0)) (m ((c : Thread nD τ).loc main_arg1)) (m ((c : Thread nD τ).loc main_arg2)) (m ((c : Thread nD τ).loc main_arg3)) (((cfg0.win 4).blk t).view.emb (ix4 u h r d))
  have hu : u.val = 0 := by omega
  have hr : r.val < 256 := r.isLt
  have hbt : t.val / 64 < 2 := by omega
  have hq : 256 * ((t.val / 8) % 8) + r.val < 2048 := by omega
  obtain ⟨-, -, -, -, ⟨e0, e1, e2, e3⟩⟩ := idx_facts t
  have hemb : ((cfg0.win 4).blk t).view.emb (ix4 u h r d)
      = ix4 (⟨t.val / 64, hbt⟩ : Fin 2) h (⟨256 * ((t.val / 8) % 8) + r.val, hq⟩ : Fin 2048) d := funext fun a => Fin.ext (by
    match a with
    | ⟨0, _⟩ => show win0_4.index t (0 : Fin 4) * 1 + 1 * u.val = t.val / 64; omega
    | ⟨1, _⟩ => show win0_4.index t (1 : Fin 4) * 16 + 1 * h.val = h.val; omega
    | ⟨2, _⟩ => show win0_4.index t (2 : Fin 4) * 256 + 1 * r.val = 256 * ((t.val / 8) % 8) + r.val; omega
    | ⟨3, _⟩ => show win0_4.index t (3 : Fin 4) * 64 + 1 * d.val = d.val; omega)
  rw [hemb]
  show _ = out (m ((c : Thread nD τ).loc main_arg0)) (m ((c : Thread nD τ).loc main_arg1)) (m ((c : Thread nD τ).loc main_arg2)) (m ((c : Thread nD τ).loc main_arg3)) (⟨t.val / 64, hbt⟩ : Fin 2) h (⟨256 * ((t.val / 8) % 8) + r.val, hq⟩ : Fin 2048) d
  rw [← sum_part]
  unfold k0_pay2
  rw [shapeCast_abc_1abc_apply _ _ u h r d, scratch_at m c t h7, pay3_apply, zero_add]
  refine Finset.sum_congr rfl fun s hs8 => ?_
  have hs' : s < 8 := Finset.mem_range.mp hs8
  exact contrib_eq m c (8 * (t.val / 8) + s) (by omega) h r d (⟨t.val / 64, hbt⟩ : Fin 2) ((t.val / 8) % 8) s
    (by show (8 * (t.val / 8) + s) / 64 = t.val / 64; omega) (by omega) (by omega) hq

/-- An index of the result array is in step t's output block iff each coordinate is in the block's range. -/
theorem mem_blk (t : Fin cfg0.N) (i : S2x16x2048x64.Idx) :
    i ∈ ((cfg0.win 4).blk t).view.set ↔ ∀ a : Fin 4, win0_4.index t a * S1x16x256x64.size a ≤ (i a).val
      ∧ (i a).val < win0_4.index t a * S1x16x256x64.size a + S1x16x256x64.size a := by
  show i ∈ ((View.whole main_v1).slice (win0_4.rect t)).set ↔ _
  rw [View.set_slice_whole, Rect.mem_set_unit]
  exact Iff.rfl

/-- Every index of the result array is in the output block of its (batch, query block)'s last step. -/
theorem cover (i : S2x16x2048x64.Idx) :
    ∃ t : Fin cfg0.N, (cfg0.win 4).flush t = true ∧ i ∈ ((cfg0.win 4).blk t).view.set := by
  have hN : cfg0.N = 128 := N_0
  have i0 : (i 0).val < 2 := (i 0).isLt
  have i1 : (i 1).val < 16 := (i 1).isLt
  have i2 : (i 2).val < 2048 := (i 2).isLt
  have i3 : (i 3).val < 64 := (i 3).isLt
  obtain ⟨t, ht⟩ : ∃ t : Fin cfg0.N, t.val = (i 0).val * 64 + ((i 2).val / 256) * 8 + 7 :=
    ⟨⟨(i 0).val * 64 + ((i 2).val / 256) * 8 + 7, by rw [hN]; omega⟩, rfl⟩
  refine ⟨t, (flush0_4 t).mpr (by omega), ?_⟩
  obtain ⟨-, -, -, -, ⟨e0, e1, e2, e3⟩⟩ := idx_facts t
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- So the result array ends holding the specification's array. -/
theorem final (c : Dev nD) : (dats m 0 c).arrAt 4 cfg0.N = G (m ((c : Thread nD τ).loc main_arg0)) (m ((c : Thread nD τ).loc main_arg1)) (m ((c : Thread nD τ).loc main_arg2)) (m ((c : Thread nD τ).loc main_arg3)) :=
  (dats m 0 c).arrAt_eq_of_cover 4 (G (m ((c : Thread nD τ).loc main_arg0)) (m ((c : Thread nD τ).loc main_arg1)) (m ((c : Thread nD τ).loc main_arg2)) (m ((c : Thread nD τ).loc main_arg3))) (fun t hf => flushed_eq m c t hf) cover

/-- The run, read: the result array at the specification's array of the arguments, the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AttnValue

end
-- ==== Proof.RefValue.lean ====
/-
  The reference, read at an index, is the head-axis softmax attention of the specification:
  its scores are the masked scaled dot products, its maximum over the heads (taken once more
  against -∞, which changes nothing) and its sum over the heads (from zero) normalise the
  exponentials, and its last contraction sums the weights times V over the 2048 key rows.
-/
import proofs.«177176_j74663711474182_1_alg».proof.Proof.Gen.ReferenceIdeal.Read
import proofs.«177176_j74663711474182_1_alg».proof.Proof.Spec

noncomputable section

open scoped BigOperators

namespace Cert.ReferenceIdeal.AttnRef

open Cert.ReferenceIdeal Cert.ReferenceIdeal.Gen Cert.ReferenceIdeal.Read Idealize.ShloMosaic Idealize.ShloMosaic.ValueIdx Cert.Attn

variable (x0 x1 x2 : (⟨S2x16x2048x64, .f32⟩ : BufTy).Contents (Elt Ideal)) (x3 : (⟨S2x16x2048x2048, .i1⟩ : BufTy).Contents (Elt Ideal))

/-- The sixteen heads' scores at (b, q, k), as the specification writes them. -/
abbrev sigma (b : Fin 2) (q k : Fin 2048) : Fin 16 → EReal :=
  fun h' => cell (x3 (ix4 b h' q k)) (∑ d : Fin 64, x0 (ix4 b h' q d) * x1 (ix4 b h' k d))

/-- The masked scaled score. -/
theorem score_eq (b : Fin 2) (h : Fin 16) (q k : Fin 2048) :
    val_main_v3 (F := Ideal) x0 x1 x3 (ix4 b h q k) = sigma x0 x1 x3 b q k h := by
  rw [val_main_v3_apply, val_main_call0_v0_apply, val_main_cst_0_apply, val_main_v2_apply, val_main_v0_apply, val_main_v1_apply,
    val_main_cst_apply]
  have el : ∀ d : Fin 64, lidx_main_v0 (ix4 b h q k) d = ix4 b h q d := fun d => funext fun a => by match a with | ⟨0, _⟩ => rfl | ⟨1, _⟩ => rfl | ⟨2, _⟩ => rfl | ⟨3, _⟩ => rfl
  have er : ∀ d : Fin 64, ridx_main_v0 (ix4 b h q k) d = ix4 b h k d := fun d => funext fun a => by match a with | ⟨0, _⟩ => rfl | ⟨1, _⟩ => rfl | ⟨2, _⟩ => rfl | ⟨3, _⟩ => rfl
  simp only [el, er]
  rfl

/-- The reduced index (b, q, k) with head h' put back is (b, h', q, k). -/
theorem lift_heads (hred : S2x16x2048x2048.Reduces [1] S2x2048x2048) (b : Fin 2) (q k : Fin 2048) (h' : Fin (S2x16x2048x2048.size 1)) :
    hred.lift (ix3 b q k) h' = ix4 b (⟨h'.val, h'.isLt⟩ : Fin 16) q k := by
  funext a; apply Fin.ext
  match a with | ⟨0, _⟩ => rfl | ⟨1, _⟩ => rfl | ⟨2, _⟩ => rfl | ⟨3, _⟩ => rfl

/-- The maximum over the heads. -/
theorem top_eq (b : Fin 2) (q k : Fin 2048) :
    val_main_v6 (F := Ideal) x0 x1 x3 (ix3 b q k) = top16 (sigma x0 x1 x3 b q k) := by
  have hred : S2x16x2048x2048.Reduces [1] S2x2048x2048 := by decide
  rw [val_main_v6_apply, val_main_v5_apply, val_main_cst_2_apply]
  unfold val_main_v4
  rw [Host.reduce_eq_fold_single FloatOps.maximumf _ _ reducesTo_S2x16x2048x2048_S2x2048x2048_d1 hred h_S_]
  have hb : ∀ y : EReal, max (Ideal.ofBits .f32 0xFF800000#32) y = y := fun y => by simp [Ideal.ofBits, Ideal.ieee]
  refine (hb _).trans ?_
  have hf : (val_main_v3 (F := Ideal) x0 x1 x3 ∘ hred.lift (ix3 b q k)) = sigma x0 x1 x3 b q k :=
    funext fun h' => (congrArg (val_main_v3 (F := Ideal) x0 x1 x3) (lift_heads hred b q k h')).trans (score_eq x0 x1 x3 b _ q k)
  exact congrArg (fun f => Finset.fold max (Ideal.ofBits .f32 0xFF800000#32) f (Finset.univ : Finset (Fin 16))) hf

/-- One exponential. -/
theorem exp_eq (b : Fin 2) (h : Fin 16) (q k : Fin 2048) :
    val_main_v10 (F := Ideal) x0 x1 x3 (ix4 b h q k) = Ideal.exp (sigma x0 x1 x3 b q k h - top16 (sigma x0 x1 x3 b q k)) := by
  rw [val_main_v10_apply, val_main_v9_apply, val_main_v8_apply, val_main_v7_apply, score_eq]
  have e : idx_main_v7 (idx_main_v8 (ix4 b h q k)) = ix3 b q k := funext fun a => by match a with | ⟨0, _⟩ => rfl | ⟨1, _⟩ => rfl | ⟨2, _⟩ => rfl
  rw [e, top_eq]
  rfl

/-- The attention weight. -/
theorem weight_eq (b : Fin 2) (h : Fin 16) (q k : Fin 2048) :
    val_main_v14 (F := Ideal) x0 x1 x3 (ix4 b h q k) = weight x0 x1 x3 b h q k := by
  rw [val_main_v14_apply, val_main_v13_apply, val_main_v12_apply, val_main_v11_apply, val_main_cst_3_apply, exp_eq]
  have e : idx_main_v12 (idx_main_v13 (ix4 b h q k)) = ix3 b q k := funext fun a => by match a with | ⟨0, _⟩ => rfl | ⟨1, _⟩ => rfl | ⟨2, _⟩ => rfl
  have e' : ∀ h' : Fin 16, idx_main_v11 (ix3 b q k) h' = ix4 b h' q k := fun h' => funext fun a => by match a with | ⟨0, _⟩ => rfl | ⟨1, _⟩ => rfl | ⟨2, _⟩ => rfl | ⟨3, _⟩ => rfl
  rw [e]
  simp only [e', exp_eq]
  unfold weight softmax16
  show Ideal.div _ (Ideal.ofBits .f32 0x00000000#32 + _) = _
  rw [Ideal.ofBits_zero_f32, zero_add]

/-- The reference's result is the specification's array. -/
theorem result_eq : val_main_v15 (F := Ideal) x0 x1 x2 x3 = G x0 x1 x2 x3 := by
  funext i
  obtain ⟨b, h, q, d, rfl⟩ : ∃ (b : Fin 2) (h : Fin 16) (q : Fin 2048) (d : Fin 64), i = ix4 b h q d := ⟨i 0, i 1, i 2, i 3, eq_ix4 i⟩
  rw [val_main_v15_apply]
  show _ = out x0 x1 x2 x3 b h q d
  unfold out term
  refine Finset.sum_congr rfl fun k _ => ?_
  have el : lidx_main_v15 (ix4 b h q d) k = ix4 b h q k := funext fun a => by match a with | ⟨0, _⟩ => rfl | ⟨1, _⟩ => rfl | ⟨2, _⟩ => rfl | ⟨3, _⟩ => rfl
  have er : ridx_main_v15 (ix4 b h q d) k = ix4 b h k d := funext fun a => by match a with | ⟨0, _⟩ => rfl | ⟨1, _⟩ => rfl | ⟨2, _⟩ => rfl | ⟨3, _⟩ => rfl
  rw [el, er, weight_eq]

end Cert.ReferenceIdeal.AttnRef

end
-- ==== Proof.lean ====
/-
  Head-axis softmax attention: the tiled kernel against the plain jnp reference.

  Both programs compute, for batch b, head h, query row q and column d,
      out(b,h,q,d) = ∑ k, w(b,h,q,k) · V(b,h,k,d),
  where w is the softmax ACROSS THE SIXTEEN HEADS of the masked scaled scores
  (-1e9 where the mask is set, else the Q·K dot product times 1/8). The kernel walks a grid of
  (batch, query block, key block) steps; a step loads 256 query rows and 256 key rows of all heads,
  computes the softmax over the heads for that tile, and adds the tile's weights times V into an
  accumulator that is reset at the first key block and written out at the last. Over the extended
  reals the accumulated eight partial sums are the one sum over the 2048 key rows, by commutativity
  and associativity of addition alone, so the precondition is not used for the value.

  The three frames come from the generated frame runs (the reference's from its generated run); the
  idealization rewrote nothing; the value claim sets the kernel's result array (Proof/KernelValue.lean)
  beside the reference's (Proof/RefValue.lean), both equal to the specification's array (Proof/Spec.lean).
-/
import proofs.«177176_j74663711474182_1_alg».proof.Defs
import proofs.«177176_j74663711474182_1_alg».proof.Proof.Gen.Kernel
import proofs.«177176_j74663711474182_1_alg».proof.Proof.Gen.Kernel.Skeleton
import proofs.«177176_j74663711474182_1_alg».proof.Proof.Gen.Kernel.Launch
import proofs.«177176_j74663711474182_1_alg».proof.Proof.Gen.Kernel.Points
import proofs.«177176_j74663711474182_1_alg».proof.Proof.Gen.Kernel.Frame
import proofs.«177176_j74663711474182_1_alg».proof.Proof.Gen.KernelIdeal
import proofs.«177176_j74663711474182_1_alg».proof.Proof.Gen.KernelIdeal.Skeleton
import proofs.«177176_j74663711474182_1_alg».proof.Proof.Gen.KernelIdeal.Launch
import proofs.«177176_j74663711474182_1_alg».proof.Proof.Gen.KernelIdeal.Points
import proofs.«177176_j74663711474182_1_alg».proof.Proof.Gen.KernelIdeal.Frame
import proofs.«177176_j74663711474182_1_alg».proof.Proof.Gen.ReferenceIdeal
import proofs.«177176_j74663711474182_1_alg».proof.Proof.Gen.Pre_finite_inputs
import proofs.«177176_j74663711474182_1_alg».proof.Proof.Gen.KernelIdeal.Value
import proofs.«177176_j74663711474182_1_alg».proof.Proof.Gen.ReferenceIdeal.Run
import proofs.«177176_j74663711474182_1_alg».proof.Proof.Gen.ReferenceIdeal.Read
import proofs.«177176_j74663711474182_1_alg».proof.Proof.Spec
import proofs.«177176_j74663711474182_1_alg».proof.Proof.KernelValue
import proofs.«177176_j74663711474182_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result array and the reference's are the specification's array of arguments that agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.AttnValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.AttnRef.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
